-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v4_2)) (v4 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_v4_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v35) = v3 c
          ∧ r.2.mem ((c.tc : Thread Cert.ReferenceIdeal.nD Cert.ReferenceIdeal.τ).loc Cert.ReferenceIdeal.main_v25) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S512x4096 : Shape := ⟨2, ![512, 4096]⟩
abbrev S4096 : Shape := ⟨1, ![4096]⟩
abbrev S1024x4096 : Shape := ⟨2, ![1024, 4096]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg7 : FVec F S1024x4096 .f32) (main_arg8 : FVec F S4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg4 : FVec F S16384x1024 .f32) (main_arg5 : FVec F S512x4096 .f32) (main_arg6 : FVec F S4096 .f32) (main_arg7 : FVec F S1024x4096 .f32) (main_arg8 : FVec F S4096 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S16384x512 .f32) (main_arg1 : FVec F S16384x1024 .f32) (main_arg2 : FVec F S16384x1024 .f32) (main_arg3 : FVec F S16384x1024 .f32) (main_arg4 : FVec F S16384x1024 .f32) (main_arg5 : FVec F S512x4096 .f32) (main_arg6 : FVec F S4096 .f32) (main_arg7 : FVec F S1024x4096 .f32) (main_arg8 : FVec F S4096 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_v13 main_v16
-- ==== Kernel.lean ====
abbrev S16384x512 : Shape := ⟨2, ![16384, 512]⟩
abbrev S16384x1024 : Shape := ⟨2, ![16384, 1024]⟩
abbrev S512x4096 : Shape := ⟨2, ![512, 4096]⟩
abbrev S4096 : Shape := ⟨1, ![4096]⟩
abbrev S1024x4096 : Shape := ⟨2, ![1024, 4096]⟩
abbrev S1x4096 : Shape := ⟨2, ![1, 4096]⟩
abbrev S256x512 : Shape := ⟨2, ![256, 512]⟩
abbrev S256x1024 : Shape := ⟨2, ![256, 1024]⟩
abbrev S256x4096 : Shape := ⟨2, ![256, 4096]⟩

abbrev nBuf : Space → Nat
  | .hbm => 17
  | .vmem => 21
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S512x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S512x4096, .bf16⟩
  | .hbm, ⟨10, _⟩ => ⟨S1024x4096, .bf16⟩
  | .hbm, ⟨11, _⟩ => ⟨S4096, .f32⟩
  | .hbm, ⟨12, _⟩ => ⟨S1x4096, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .local _ .vmem, ⟨0, _⟩ => ⟨S256x512, .f32⟩
  | .local _ .vmem, ⟨1, _⟩ => ⟨S256x512, .f32⟩
  | .local _ .vmem, ⟨2, _⟩ => ⟨S512x4096, .bf16⟩
  | .local _ .vmem, ⟨3, _⟩ => ⟨S1024x4096, .bf16⟩
  | .local _ .vmem, ⟨4, _⟩ => ⟨S1x4096, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x512_S512x4096_S256x4096_1_0_0_1_n_n_wf : DotDims.WF S256x512 S512x4096 S256x4096 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S512x4096.size a
  hwx0_1 : ∀ i : grid0.Coords, EltTy.bits .bf16 = 32 ∨ (Rect.block (s := S512x4096) S512x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S16384x1024.size a
  hwx0_4 : ∀ i : grid0.Coords, EltTy.bits .f32 = 32 ∨ (Rect.block (s := S16384x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S16384x1024.size a
  hwx0_9 : ∀ i : grid0.Coords, EltTy.bits .f32 = 32 ∨ (Rect.block (s := S16384x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S16384x1024.size a
  hwx0_10 : ∀ i : grid0.Coords, EltTy.bits .f32 = 32 ∨ (Rect.block (s := S16384x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S256x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S256x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_1) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_2) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_3) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S512x4096 : Shape := ⟨2, ![512, 4096]⟩
abbrev S4096 : Shape := ⟨1, ![4096]⟩
abbrev S1024x4096 : Shape := ⟨2, ![1024, 4096]⟩
abbrev S16384x4096 : Shape := ⟨2, ![16384, 4096]⟩
abbrev S1x4096 : Shape := ⟨2, ![1, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S512x4096, .f32⟩
  | .hbm, ⟨6, _⟩ => ⟨S4096, .f32⟩
  | .hbm, ⟨7, _⟩ => ⟨S1024x4096, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x512_S512x4096_S16384x4096_1_0_0_1_n_n_wf : DotDims.WF S16384x512 S512x4096 S16384x4096 [1] [0] [0] [1] [] []
  dot_S16384x1024_S1024x4096_S16384x4096_1_0_0_1_n_n_wf : DotDims.WF S16384x1024 S1024x4096 S16384x4096 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.Cell.lean ====
/-
  The exponential-gated, max-stabilised LSTM cell on the extended reals.

  One row of the batch has four gate pre-activations (cell input g0, input gate g1, forget gate g2, output gate g3),
  each the sum of the row's input against a column of W, the row's previous hidden state against a column of R, and
  the two biases. From them and the previous stabiliser m', cell state c' and normaliser n':

      m = max (g2 + m') g1
      c = exp ((g2 + m') - m) * c' + exp g1 * tanh g0
      n = exp ((g2 + m') - m) * n' + exp (g1 - m)
      h = logistic g3 * (c / n)

  Two programs that compute this cell may differ in three ways that mean nothing on the extended reals, and the
  three laws are here:  the logarithm undoes the exponential at EVERY extended real (at -inf through exp = 0 and
  log 0 = -inf, at +inf through +inf, at a real by the real law), so a gate and the logarithm of its exponential are
  one number;  logistic x IS 1 / (1 + exp (-x)), the pattern of 1.0 denoting the number 1;  and the four summands of
  a gate may be grouped either as ((A + w) + B) + r or as (A + B) + (w + r), addition of extended reals being
  commutative and associative everywhere (no finiteness is asked of anything).
-/
import Idealize.ShloMosaic.PureOps.Ideal
import Idealize.ShloMosaic.PureOps.Ideal.Laws
import Idealize.ShloMosaic.Lib.ValueIdx

noncomputable section

namespace Cert.SLstm

open Idealize.ShloMosaic Idealize.ShloMosaic.ValueIdx

/-! ## The three laws -/

/-- The logarithm undoes the exponential at every extended real: `exp (-inf) = 0` and `log 0 = -inf`;
    `exp (+inf) = +inf = log (+inf)`; and at a real `r`, `exp r > 0` and `Real.log (Real.exp r) = r`. -/
theorem log_exp (x : EReal) : Ideal.log (Ideal.exp x) = x := by
  induction x using EReal.rec with
  | bot => rw [Ideal.exp_bot, ← EReal.coe_zero, Ideal.log_coe, if_pos le_rfl]
  | top => rw [Ideal.exp_top, Ideal.log_top]
  | coe r => rw [Ideal.exp_coe, Ideal.log_coe, if_neg (not_le.mpr (Real.exp_pos r)), Real.log_exp]

/-- The single-precision pattern of `1.0` denotes the number one. -/
theorem one_f32 : Ideal.ofBits .f32 0x3F800000#32 = 1 := by
  simp [Ideal.ofBits, Ideal.ieee, -EReal.coe_mul]; norm_num

/-- The logistic function written out with the pattern of `1.0` for its two ones. -/
theorem logistic_written_out (x : EReal) :
    Ideal.div (Ideal.ofBits .f32 0x3F800000#32) (Ideal.ofBits .f32 0x3F800000#32 + Ideal.exp (-x)) = Ideal.logistic x := by
  rw [one_f32]; rfl

/-- Four summands grouped as `((A + w) + B) + r` or as `(A + B) + (w + r)`: one extended real. -/
theorem regroup (A B w r : EReal) : ((A + w) + B) + r = (A + B) + (w + r) := by
  rw [add_assoc (A + w) B r, add_add_add_comm A w B r]

/-! ## The cell, one element -/

/-- The new stabiliser: the larger of the forget gate carried by the old stabiliser and the input gate. -/
def mNew (g1 g2 mp : EReal) : EReal := max (g2 + mp) g1

/-- The stabilised forget factor. -/
def fStab (g1 g2 mp : EReal) : EReal := Ideal.exp ((g2 + mp) - mNew g1 g2 mp)

/-- The new cell state. -/
def cNew (g0 g1 g2 mp cp : EReal) : EReal := fStab g1 g2 mp * cp + Ideal.exp g1 * Ideal.tanh g0

/-- The new normaliser. -/
def nNew (g1 g2 mp np : EReal) : EReal := fStab g1 g2 mp * np + Ideal.exp (g1 - mNew g1 g2 mp)

/-- The new hidden state. -/
def hNew (g0 g1 g2 g3 mp cp np : EReal) : EReal :=
  Ideal.logistic g3 * Ideal.div (cNew g0 g1 g2 mp cp) (nNew g1 g2 mp np)

/-! ## The gates and the four results as functions of the argument arrays -/

/-- Column `j + off` of the 4096 gate columns: `off` = 0, 1024, 2048, 3072 are the cell input, the input gate, the
    forget gate and the output gate of hidden unit `j`. -/
abbrev gcol (off : Nat) (hoff : off ≤ 3072) (j : Fin 1024) : Fin 4096 := ⟨j.val + off, by have := j.isLt; omega⟩

/-- Gate pre-activation `k` of batch row `r`: the row of `x` against column `k` of `W`, plus the row of `h` against
    column `k` of `R`, plus the two biases. -/
def gate (x : FVec Ideal ⟨2, ![16384, 512]⟩ .f32) (h : FVec Ideal ⟨2, ![16384, 1024]⟩ .f32)
    (W : FVec Ideal ⟨2, ![512, 4096]⟩ .f32) (wb : FVec Ideal ⟨1, ![4096]⟩ .f32)
    (R : FVec Ideal ⟨2, ![1024, 4096]⟩ .f32) (rb : FVec Ideal ⟨1, ![4096]⟩ .f32) (r : Fin 16384) (k : Fin 4096) : EReal :=
  (∑ p : Fin 512, x (ix2 r p) * W (ix2 p k) + ∑ q : Fin 1024, h (ix2 r q) * R (ix2 q k)) + (wb (ix1 k) + rb (ix1 k))

section results

variable (x : FVec Ideal ⟨2, ![16384, 512]⟩ .f32) (cp h np mp : FVec Ideal ⟨2, ![16384, 1024]⟩ .f32)
  (W : FVec Ideal ⟨2, ![512, 4096]⟩ .f32) (wb : FVec Ideal ⟨1, ![4096]⟩ .f32)
  (R : FVec Ideal ⟨2, ![1024, 4096]⟩ .f32) (rb : FVec Ideal ⟨1, ![4096]⟩ .f32)

/-- The new stabiliser of row `r`, hidden unit `j`. -/
def mAt (r : Fin 16384) (j : Fin 1024) : EReal :=
  mNew (gate x h W wb R rb r (gcol 1024 (by omega) j)) (gate x h W wb R rb r (gcol 2048 (by omega) j)) (mp (ix2 r j))

/-- The new cell state of row `r`, hidden unit `j`. -/
def cAt (r : Fin 16384) (j : Fin 1024) : EReal :=
  cNew (gate x h W wb R rb r (gcol 0 (by omega) j)) (gate x h W wb R rb r (gcol 1024 (by omega) j))
    (gate x h W wb R rb r (gcol 2048 (by omega) j)) (mp (ix2 r j)) (cp (ix2 r j))

/-- The new normaliser of row `r`, hidden unit `j`. -/
def nAt (r : Fin 16384) (j : Fin 1024) : EReal :=
  nNew (gate x h W wb R rb r (gcol 1024 (by omega) j)) (gate x h W wb R rb r (gcol 2048 (by omega) j))
    (mp (ix2 r j)) (np (ix2 r j))

/-- The new hidden state of row `r`, hidden unit `j`. -/
def hAt (r : Fin 16384) (j : Fin 1024) : EReal :=
  hNew (gate x h W wb R rb r (gcol 0 (by omega) j)) (gate x h W wb R rb r (gcol 1024 (by omega) j))
    (gate x h W wb R rb r (gcol 2048 (by omega) j)) (gate x h W wb R rb r (gcol 3072 (by omega) j))
    (mp (ix2 r j)) (cp (ix2 r j)) (np (ix2 r j))

/-- The four result arrays, index by index. -/
def mOut : FVec Ideal ⟨2, ![16384, 1024]⟩ .f32 := fun i => mAt x h mp W wb R rb (i 0) (i 1)
def cOut : FVec Ideal ⟨2, ![16384, 1024]⟩ .f32 := fun i => cAt x cp h mp W wb R rb (i 0) (i 1)
def nOut : FVec Ideal ⟨2, ![16384, 1024]⟩ .f32 := fun i => nAt x h np mp W wb R rb (i 0) (i 1)
def hOut : FVec Ideal ⟨2, ![16384, 1024]⟩ .f32 := fun i => hAt x cp h np mp W wb R rb (i 0) (i 1)

end results

end Cert.SLstm

end
-- ==== Proof.KernelGates.lean ====
/-
  The gate pre-activations the kernel body computes from its blocks, read at one entry.

  The body holds a block of 256 batch rows: the rows' inputs (256 x 512), their previous hidden states (256 x 1024),
  the whole of W (512 x 4096) and R (1024 x 4096), and the summed bias as one row (1 x 4096). Its first value is the
  256 x 4096 array  x W + h R + bias : two products into zero accumulators, added, plus the bias row repeated down
  the rows. On the extended reals a change of float format is the identity, so entry (p, k) of that array is

      (sum over a of x[p, a] * W[a, k])  +  (sum over b of h[p, b] * R[b, k])  +  bias[0, k].

  The four gates of hidden unit j are columns j, j + 1024, j + 2048, j + 3072 of it.
-/
import proofs.«120857_j11132555231846_2_alg».proof.Proof.Gen.KernelIdeal.Skeleton
import proofs.«120857_j11132555231846_2_alg».proof.Proof.Cell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Cells

open Cert.KernelIdeal Cert.KernelIdeal.Gen Idealize.ShloMosaic Idealize.ShloMosaic.ValueIdx Cert.SLstm

/-! ## The two products, entry by entry -/

theorem lhsW_row (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl

theorem rhsW_col (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- Entry `(p, k)` of the product into a zero accumulator is row `p` of the left factor against column `k` of the
    right one, summed over the 512 contracted positions. -/
theorem matmulW_at (A : FVec Ideal S256x512 .bf16) (B : FVec Ideal S512x4096 .bf16) (p : Fin 256) (k : Fin 4096) :
    matmul dot_S256x512_S512x4096_S256x4096_1_0_0_1_n_n none A B (constant (F := Ideal) S256x4096 .f32 0x00000000#32) (ix2 p k)
      = ∑ a : Fin 512, A (ix2 p a) * B (ix2 a k) := by
  simp only [matmul]
  rw [Ideal.matmul_constant_zero_apply, ← Equiv.sum_comp (ValueIdx.contrEquiv1 dot_S256x512_S512x4096_S256x4096_1_0_0_1_n_n 512 rfl rfl).symm]
  refine Finset.sum_congr rfl fun a _ => ?_
  have ha := ValueIdx.contrEquiv1_symm_val dot_S256x512_S512x4096_S256x4096_1_0_0_1_n_n 512 rfl rfl a
  have el : dot_S256x512_S512x4096_S256x4096_1_0_0_1_n_n.lhsIdx (ix2 p k) ((ValueIdx.contrEquiv1 dot_S256x512_S512x4096_S256x4096_1_0_0_1_n_n 512 rfl rfl).symm a) = ix2 p a := funext fun d => Fin.ext (by
    match d with
    | ⟨0, _⟩ => exact lhsW_row _ _
    | ⟨1, _⟩ => exact (dot_S256x512_S512x4096_S256x4096_1_0_0_1_n_n.lhsIdx_val_of_single rfl _ _).trans ha)
  have er : dot_S256x512_S512x4096_S256x4096_1_0_0_1_n_n.rhsIdx (ix2 p k) ((ValueIdx.contrEquiv1 dot_S256x512_S512x4096_S256x4096_1_0_0_1_n_n 512 rfl rfl).symm a) = ix2 a k := funext fun d => Fin.ext (by
    match d with
    | ⟨0, _⟩ => exact (dot_S256x512_S512x4096_S256x4096_1_0_0_1_n_n.rhsIdx_val_of_single rfl _ _).trans ha
    | ⟨1, _⟩ => exact rhsW_col _ _)
  rw [el, er]

theorem lhsR_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

theorem rhsR_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Entry `(p, k)` of the product into a zero accumulator is row `p` of the left factor against column `k` of the
    right one, summed over the 1024 contracted positions. -/
theorem matmulR_at (A : FVec Ideal S256x1024 .bf16) (B : FVec Ideal S1024x4096 .bf16) (p : Fin 256) (k : Fin 4096) :
    matmul dot_S256x1024_S1024x4096_S256x4096_1_0_0_1_n_n none A B (constant (F := Ideal) S256x4096 .f32 0x00000000#32) (ix2 p k)
      = ∑ a : Fin 1024, A (ix2 p a) * B (ix2 a k) := by
  simp only [matmul]
  rw [Ideal.matmul_constant_zero_apply, ← Equiv.sum_comp (ValueIdx.contrEquiv1 dot_S256x1024_S1024x4096_S256x4096_1_0_0_1_n_n 1024 rfl rfl).symm]
  refine Finset.sum_congr rfl fun a _ => ?_
  have ha := ValueIdx.contrEquiv1_symm_val dot_S256x1024_S1024x4096_S256x4096_1_0_0_1_n_n 1024 rfl rfl a
  have el : dot_S256x1024_S1024x4096_S256x4096_1_0_0_1_n_n.lhsIdx (ix2 p k) ((ValueIdx.contrEquiv1 dot_S256x1024_S1024x4096_S256x4096_1_0_0_1_n_n 1024 rfl rfl).symm a) = ix2 p a := funext fun d => Fin.ext (by
    match d with
    | ⟨0, _⟩ => exact lhsR_row _ _
    | ⟨1, _⟩ => exact (dot_S256x1024_S1024x4096_S256x4096_1_0_0_1_n_n.lhsIdx_val_of_single rfl _ _).trans ha)
  have er : dot_S256x1024_S1024x4096_S256x4096_1_0_0_1_n_n.rhsIdx (ix2 p k) ((ValueIdx.contrEquiv1 dot_S256x1024_S1024x4096_S256x4096_1_0_0_1_n_n 1024 rfl rfl).symm a) = ix2 a k := funext fun d => Fin.ext (by
    match d with
    | ⟨0, _⟩ => exact (dot_S256x1024_S1024x4096_S256x4096_1_0_0_1_n_n.rhsIdx_val_of_single rfl _ _).trans ha
    | ⟨1, _⟩ => exact rhsR_col _ _)
  rw [el, er]

/-! ## The bias row, repeated down the rows -/

/-- Entry `(p, k)` of the one bias row repeated over 256 rows is entry `(0, k)` of the row. -/
theorem bias_at (b : FVec Ideal S1x4096 .f32) (hc : S1x4096.ShapeCasts S1x4096) (hb : S1x4096.Broadcasts S256x4096)
    (p : Fin 256) (k : Fin 4096) :
    broadcastTo S256x4096 (shapeCast S1x4096 b hc) hb (ix2 p k) = b (ix2 (0 : Fin 1) k) := by
  rw [shapeCast_self]
  exact broadcastTo_1b_ab_apply b hb p k

/-! ## The gate array of a block -/

/-- Entry `(p, k)` of a block's gate pre-activations, from the block's rows of inputs `x` and hidden states `h`, the
    weights and the bias row. -/
def blockGate (x : FVec Ideal S256x512 .f32) (h : FVec Ideal S256x1024 .f32) (W : FVec Ideal S512x4096 .bf16)
    (R : FVec Ideal S1024x4096 .bf16) (b : FVec Ideal S1x4096 .f32) (p : Fin 256) (k : Fin 4096) : EReal :=
  (∑ a : Fin 512, x (ix2 p a) * W (ix2 a k) + ∑ a : Fin 1024, h (ix2 p a) * R (ix2 a k)) + b (ix2 (0 : Fin 1) k)

/-- The body's first value at entry `(p, k)` is that number. -/
theorem pay1_at (x : FVec Ideal S256x512 .f32) (h : FVec Ideal S256x1024 .f32) (W : FVec Ideal S512x4096 .bf16)
    (R : FVec Ideal S1024x4096 .bf16) (b : FVec Ideal S1x4096 .f32) (p : Fin 256) (k : Fin 4096) :
    k0_pay1 (F := Ideal) x h W R b (ix2 p k) = blockGate x h W R b p k := by
  unfold k0_pay1 blockGate
  rw [addf_apply, addf_apply, matmulW_at, matmulR_at, bias_at]
  simp only [truncf_apply, shapeCast_self]

end Cert.KernelIdeal.Cells

end
-- ==== Proof.KernelCell.lean ====
/-
  The kernel body's four stored values, read at one entry, are the cell of Cell.lean on the block's gate array; and
  when a block's row p is row r of the whole arrays they are the cell of the whole arrays at row r.

  The body cuts its 256 x 4096 gate array into the four column bands and then computes, elementwise, the new
  stabiliser, the stabilised forget factor, the new cell state, the new normaliser and the new hidden state, each
  from the bands and from earlier ones of these values. The lemmas follow that order: each reads one value at entry
  (p, q) from the values it was computed from.
-/
import proofs.«120857_j11132555231846_2_alg».proof.Proof.KernelGates

noncomputable section

namespace Cert.KernelIdeal.Cells

open Cert.KernelIdeal Cert.KernelIdeal.Gen Idealize.ShloMosaic Idealize.ShloMosaic.ValueIdx Cert.SLstm

section body

variable (x : FVec Ideal S256x512 .f32) (h : FVec Ideal S256x1024 .f32) (W : FVec Ideal S512x4096 .bf16)
  (R : FVec Ideal S1024x4096 .bf16) (b : FVec Ideal S1x4096 .f32) (mp cp np : FVec Ideal S256x1024 .f32)

/-- The band of 1024 gate columns that starts at column `off`, at entry `(p, q)`, is gate column `q + off` of row `p`. -/
theorem band_at (off : Nat) (hoff : off ≤ 3072) (hs : S256x4096.Slices ![0, off] S256x1024) (p : Fin 256) (q : Fin 1024) :
    extractStridedSlice S256x1024 ![0, off] (k0_pay1 (F := Ideal) x h W R b) hs (ix2 p q)
      = blockGate x h W R b p (gcol off hoff q) :=
  (slice2_axis1_apply off _ hs p q (gcol off hoff q) (Nat.add_comm _ _)).trans (pay1_at x h W R b p _)

/-- The input-gate band. -/
theorem pay2_at (p : Fin 256) (q : Fin 1024) :
    k0_pay2 (F := Ideal) x h W R b (ix2 p q) = blockGate x h W R b p (gcol 1024 (by omega) q) :=
  band_at x h W R b 1024 (by omega) slices_S256x4096_o0_1024_S256x1024 p q

/-- The forget-gate band. -/
theorem pay3_at (p : Fin 256) (q : Fin 1024) :
    k0_pay3 (F := Ideal) x h W R b (ix2 p q) = blockGate x h W R b p (gcol 2048 (by omega) q) :=
  band_at x h W R b 2048 (by omega) slices_S256x4096_o0_2048_S256x1024 p q

/-- The new stabiliser. -/
theorem pay4_at (p : Fin 256) (q : Fin 1024) :
    k0_pay4 (F := Ideal) x h W R b mp (ix2 p q)
      = mNew (blockGate x h W R b p (gcol 1024 (by omega) q)) (blockGate x h W R b p (gcol 2048 (by omega) q)) (mp (ix2 p q)) := by
  show max (k0_pay3 (F := Ideal) x h W R b (ix2 p q) + mp (ix2 p q)) (k0_pay2 (F := Ideal) x h W R b (ix2 p q)) = _
  rw [pay3_at, pay2_at]; rfl

/-- The stabilised forget factor. -/
theorem pay5_at (p : Fin 256) (q : Fin 1024) :
    k0_pay5 (F := Ideal) x h W R b mp (ix2 p q)
      = fStab (blockGate x h W R b p (gcol 1024 (by omega) q)) (blockGate x h W R b p (gcol 2048 (by omega) q)) (mp (ix2 p q)) := by
  show Ideal.exp ((k0_pay3 (F := Ideal) x h W R b (ix2 p q) + mp (ix2 p q)) - k0_pay4 (F := Ideal) x h W R b mp (ix2 p q)) = _
  rw [pay3_at, pay4_at]; rfl

/-- The new cell state. -/
theorem pay6_at (p : Fin 256) (q : Fin 1024) :
    k0_pay6 (F := Ideal) x h W R b mp cp (ix2 p q)
      = cNew (blockGate x h W R b p (gcol 0 (by omega) q)) (blockGate x h W R b p (gcol 1024 (by omega) q))
          (blockGate x h W R b p (gcol 2048 (by omega) q)) (mp (ix2 p q)) (cp (ix2 p q)) := by
  show k0_pay5 (F := Ideal) x h W R b mp (ix2 p q) * cp (ix2 p q)
      + Ideal.exp (k0_pay2 (F := Ideal) x h W R b (ix2 p q))
        * Ideal.tanh (extractStridedSlice S256x1024 ![0, 0] (k0_pay1 (F := Ideal) x h W R b) slices_S256x4096_o0_0_S256x1024 (ix2 p q)) = _
  rw [pay5_at, pay2_at, band_at x h W R b 0 (by omega)]; rfl

/-- The new normaliser. -/
theorem pay7_at (p : Fin 256) (q : Fin 1024) :
    k0_pay7 (F := Ideal) x h W R b mp np (ix2 p q)
      = nNew (blockGate x h W R b p (gcol 1024 (by omega) q)) (blockGate x h W R b p (gcol 2048 (by omega) q))
          (mp (ix2 p q)) (np (ix2 p q)) := by
  show k0_pay5 (F := Ideal) x h W R b mp (ix2 p q) * np (ix2 p q)
      + Ideal.exp (k0_pay2 (F := Ideal) x h W R b (ix2 p q) - k0_pay4 (F := Ideal) x h W R b mp (ix2 p q)) = _
  rw [pay5_at, pay2_at, pay4_at]; rfl

/-- The new hidden state. -/
theorem pay8_at (p : Fin 256) (q : Fin 1024) :
    k0_pay8 (F := Ideal) x h W R b mp cp np (ix2 p q)
      = hNew (blockGate x h W R b p (gcol 0 (by omega) q)) (blockGate x h W R b p (gcol 1024 (by omega) q))
          (blockGate x h W R b p (gcol 2048 (by omega) q)) (blockGate x h W R b p (gcol 3072 (by omega) q))
          (mp (ix2 p q)) (cp (ix2 p q)) (np (ix2 p q)) := by
  show Ideal.logistic (extractStridedSlice S256x1024 ![0, 3072] (k0_pay1 (F := Ideal) x h W R b) slices_S256x4096_o0_3072_S256x1024 (ix2 p q))
      * Ideal.div (k0_pay6 (F := Ideal) x h W R b mp cp (ix2 p q)) (k0_pay7 (F := Ideal) x h W R b mp np (ix2 p q)) = _
  rw [band_at x h W R b 3072 (by omega), pay6_at, pay7_at]; rfl

end body

/-! ## A block's row as a row of the whole arrays -/

section rows

variable (x : FVec Ideal S256x512 .f32) (h : FVec Ideal S256x1024 .f32) (W : FVec Ideal S512x4096 .bf16)
  (R : FVec Ideal S1024x4096 .bf16) (b : FVec Ideal S1x4096 .f32) (mp cp np : FVec Ideal S256x1024 .f32)
  (X : FVec Ideal S16384x512 .f32) (CP H NP MP : FVec Ideal S16384x1024 .f32) (Wf : FVec Ideal S512x4096 .f32)
  (WB : FVec Ideal S4096 .f32) (Rf : FVec Ideal S1024x4096 .f32) (RB : FVec Ideal S4096 .f32)

/-- Row `p` of the block's batch-tiled operands is row `r` of the whole arrays; the block's weights are the whole
    weight arrays; its bias row is the sum of the two bias vectors. -/
structure IsRow (p : Fin 256) (r : Fin 16384) : Prop where
  hx : ∀ a : Fin 512, x (ix2 p a) = X (ix2 r a)
  hh : ∀ a : Fin 1024, h (ix2 p a) = H (ix2 r a)
  hmp : ∀ q : Fin 1024, mp (ix2 p q) = MP (ix2 r q)
  hcp : ∀ q : Fin 1024, cp (ix2 p q) = CP (ix2 r q)
  hnp : ∀ q : Fin 1024, np (ix2 p q) = NP (ix2 r q)
  hW : ∀ (a : Fin 512) (k : Fin 4096), W (ix2 a k) = Wf (ix2 a k)
  hR : ∀ (a : Fin 1024) (k : Fin 4096), R (ix2 a k) = Rf (ix2 a k)
  hb : ∀ k : Fin 4096, b (ix2 (0 : Fin 1) k) = WB (ix1 k) + RB (ix1 k)

variable {x h W R b mp cp np X CP H NP MP Wf WB Rf RB}

/-- Then the block's gate `k` of row `p` is the arrays' gate `k` of row `r`: the same two sums and the same biases. -/
theorem blockGate_of_row {p : Fin 256} {r : Fin 16384} (hr : IsRow x h W R b mp cp np X CP H NP MP Wf WB Rf RB p r)
    (k : Fin 4096) : blockGate x h W R b p k = gate X H Wf WB Rf RB r k := by
  unfold blockGate gate
  simp only [hr.hx, hr.hh, hr.hW, hr.hR, hr.hb]

/-- The stored stabiliser at `(p, q)` is the arrays' new stabiliser at `(r, q)`. -/
theorem m_of_row {p : Fin 256} {r : Fin 16384} (hr : IsRow x h W R b mp cp np X CP H NP MP Wf WB Rf RB p r) (q : Fin 1024) :
    k0_pay4 (F := Ideal) x h W R b mp (ix2 p q) = mAt X H MP Wf WB Rf RB r q := by
  rw [pay4_at, blockGate_of_row hr, blockGate_of_row hr, hr.hmp]; rfl

/-- The stored cell state at `(p, q)` is the arrays' new cell state at `(r, q)`. -/
theorem c_of_row {p : Fin 256} {r : Fin 16384} (hr : IsRow x h W R b mp cp np X CP H NP MP Wf WB Rf RB p r) (q : Fin 1024) :
    k0_pay6 (F := Ideal) x h W R b mp cp (ix2 p q) = cAt X CP H MP Wf WB Rf RB r q := by
  rw [pay6_at, blockGate_of_row hr, blockGate_of_row hr, blockGate_of_row hr, hr.hmp, hr.hcp]; rfl

/-- The stored normaliser at `(p, q)` is the arrays' new normaliser at `(r, q)`. -/
theorem n_of_row {p : Fin 256} {r : Fin 16384} (hr : IsRow x h W R b mp cp np X CP H NP MP Wf WB Rf RB p r) (q : Fin 1024) :
    k0_pay7 (F := Ideal) x h W R b mp np (ix2 p q) = nAt X H NP MP Wf WB Rf RB r q := by
  rw [pay7_at, blockGate_of_row hr, blockGate_of_row hr, hr.hmp, hr.hnp]; rfl

/-- The stored hidden state at `(p, q)` is the arrays' new hidden state at `(r, q)`. -/
theorem h_of_row {p : Fin 256} {r : Fin 16384} (hr : IsRow x h W R b mp cp np X CP H NP MP Wf WB Rf RB p r) (q : Fin 1024) :
    k0_pay8 (F := Ideal) x h W R b mp cp np (ix2 p q) = hAt X CP H NP MP Wf WB Rf RB r q := by
  rw [pay8_at, blockGate_of_row hr, blockGate_of_row hr, blockGate_of_row hr, blockGate_of_row hr, hr.hmp, hr.hcp, hr.hnp]; rfl

/-! ## A block of 256 rows as rows `256 t … 256 t + 255` of the whole arrays -/

variable (x h W R b mp cp np X CP H NP MP Wf WB Rf RB)

/-- If row `p` of the block is row `256 t + p` of the arrays for every `p`, the stored stabiliser at block entry `y` is the result array's entry at the array index over `y`. -/
theorem m_point (tv : Nat)
    (hrow : ∀ (p : Fin 256) (r : Fin 16384), r.val = tv * 256 + p.val → IsRow x h W R b mp cp np X CP H NP MP Wf WB Rf RB p r)
    (y : S256x1024.Idx) (i : S16384x1024.Idx) (hi0 : (i 0).val = tv * 256 + (y 0).val) (hi1 : (i 1).val = (y 1).val) :
    k0_pay4 (F := Ideal) x h W R b mp y = mOut X H MP Wf WB Rf RB i := by
  obtain ⟨p, q, rfl⟩ : ∃ (p : Fin 256) (q : Fin 1024), y = ix2 p q := ⟨y 0, y 1, eq_ix2 y⟩
  obtain ⟨r, j, rfl⟩ : ∃ (r : Fin 16384) (j : Fin 1024), i = ix2 r j := ⟨i 0, i 1, eq_ix2 i⟩
  obtain rfl : j = q := Fin.ext hi1
  exact m_of_row (hrow p r hi0) j

/-- The same for the stored cell state. -/
theorem c_point (tv : Nat)
    (hrow : ∀ (p : Fin 256) (r : Fin 16384), r.val = tv * 256 + p.val → IsRow x h W R b mp cp np X CP H NP MP Wf WB Rf RB p r)
    (y : S256x1024.Idx) (i : S16384x1024.Idx) (hi0 : (i 0).val = tv * 256 + (y 0).val) (hi1 : (i 1).val = (y 1).val) :
    k0_pay6 (F := Ideal) x h W R b mp cp y = cOut X CP H MP Wf WB Rf RB i := by
  obtain ⟨p, q, rfl⟩ : ∃ (p : Fin 256) (q : Fin 1024), y = ix2 p q := ⟨y 0, y 1, eq_ix2 y⟩
  obtain ⟨r, j, rfl⟩ : ∃ (r : Fin 16384) (j : Fin 1024), i = ix2 r j := ⟨i 0, i 1, eq_ix2 i⟩
  obtain rfl : j = q := Fin.ext hi1
  exact c_of_row (hrow p r hi0) j

/-- The same for the stored normaliser. -/
theorem n_point (tv : Nat)
    (hrow : ∀ (p : Fin 256) (r : Fin 16384), r.val = tv * 256 + p.val → IsRow x h W R b mp cp np X CP H NP MP Wf WB Rf RB p r)
    (y : S256x1024.Idx) (i : S16384x1024.Idx) (hi0 : (i 0).val = tv * 256 + (y 0).val) (hi1 : (i 1).val = (y 1).val) :
    k0_pay7 (F := Ideal) x h W R b mp np y = nOut X H NP MP Wf WB Rf RB i := by
  obtain ⟨p, q, rfl⟩ : ∃ (p : Fin 256) (q : Fin 1024), y = ix2 p q := ⟨y 0, y 1, eq_ix2 y⟩
  obtain ⟨r, j, rfl⟩ : ∃ (r : Fin 16384) (j : Fin 1024), i = ix2 r j := ⟨i 0, i 1, eq_ix2 i⟩
  obtain rfl : j = q := Fin.ext hi1
  exact n_of_row (hrow p r hi0) j

/-- The same for the stored hidden state. -/
theorem h_point (tv : Nat)
    (hrow : ∀ (p : Fin 256) (r : Fin 16384), r.val = tv * 256 + p.val → IsRow x h W R b mp cp np X CP H NP MP Wf WB Rf RB p r)
    (y : S256x1024.Idx) (i : S16384x1024.Idx) (hi0 : (i 0).val = tv * 256 + (y 0).val) (hi1 : (i 1).val = (y 1).val) :
    k0_pay8 (F := Ideal) x h W R b mp cp np y = hOut X CP H NP MP Wf WB Rf RB i := by
  obtain ⟨p, q, rfl⟩ : ∃ (p : Fin 256) (q : Fin 1024), y = ix2 p q := ⟨y 0, y 1, eq_ix2 y⟩
  obtain ⟨r, j, rfl⟩ : ∃ (r : Fin 16384) (j : Fin 1024), i = ix2 r j := ⟨i 0, i 1, eq_ix2 i⟩
  obtain rfl : j = q := Fin.ext hi1
  exact h_of_row (hrow p r hi0) j

end rows

end Cert.KernelIdeal.Cells

end
-- ==== Proof.KernelBlocks.lean ====
/-
  From blocks to arrays: after the kernel's run each of its four result arrays is the cell of Cell.lean of the
  argument arrays, entry by entry.

  The grid has 64 points. At point t the batch-tiled operands (the inputs, the previous hidden state, cell state,
  normaliser and stabiliser) show rows 256 t … 256 t + 255 of their arrays, the two weight matrices and the bias
  row show their whole arrays, and each result window writes back rows 256 t … 256 t + 255 of its array. The weight
  arrays as the region finds them are the weight arguments after a change of float format, which on the extended
  reals is the identity; the bias row is the sum of the two bias arguments laid out as one row. So row p of the
  blocks at point t is row 256 t + p of the whole arrays, what point t writes back is block t of the cell's result,
  and since row r lies in the block of point r / 256 the blocks fill each result array.
-/
import proofs.«120857_j11132555231846_2_alg».proof.Proof.Gen.KernelIdeal.Value
import proofs.«120857_j11132555231846_2_alg».proof.Proof.KernelCell
import Idealize.ShloMosaic.Lib.StableHlo.Run
import Idealize.ShloMosaic.Lib.ValueLayout
import Idealize.ShloMosaic.Lib.Pipeline.Value

noncomputable section

namespace Cert.KernelIdeal.Blocks

open Cert.KernelIdeal Cert.KernelIdeal.Gen Cert.KernelIdeal.Cells Idealize.ShloMosaic Idealize.ShloMosaic.TcCoe Idealize.SL.Sem
open Idealize.ShloMosaic.ValueIdx Cert.SLstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## Where each window's block sits, decided over the 64 grid points -/

theorem idx_rows0 : ∀ t : Fin cfg0.N, win0_0.index t (0 : Fin 2) = t.val ∧ win0_0.index t (1 : Fin 2) = 0 :=
  (by decide +kernel : ∀ t : Fin grid0.N, _)

theorem idx_rows4 : ∀ t : Fin cfg0.N, win0_4.index t (0 : Fin 2) = t.val ∧ win0_4.index t (1 : Fin 2) = 0 :=
  (by decide +kernel : ∀ t : Fin grid0.N, _)

theorem idx_rows5 : ∀ t : Fin cfg0.N, win0_5.index t (0 : Fin 2) = t.val ∧ win0_5.index t (1 : Fin 2) = 0 :=
  (by decide +kernel : ∀ t : Fin grid0.N, _)

theorem idx_rows6 : ∀ t : Fin cfg0.N, win0_6.index t (0 : Fin 2) = t.val ∧ win0_6.index t (1 : Fin 2) = 0 :=
  (by decide +kernel : ∀ t : Fin grid0.N, _)

theorem idx_rows7 : ∀ t : Fin cfg0.N, win0_7.index t (0 : Fin 2) = t.val ∧ win0_7.index t (1 : Fin 2) = 0 :=
  (by decide +kernel : ∀ t : Fin grid0.N, _)

theorem idx_rows8 : ∀ t : Fin cfg0.N, win0_8.index t (0 : Fin 2) = t.val ∧ win0_8.index t (1 : Fin 2) = 0 :=
  (by decide +kernel : ∀ t : Fin grid0.N, _)

theorem idx_rows9 : ∀ t : Fin cfg0.N, win0_9.index t (0 : Fin 2) = t.val ∧ win0_9.index t (1 : Fin 2) = 0 :=
  (by decide +kernel : ∀ t : Fin grid0.N, _)

theorem idx_rows10 : ∀ t : Fin cfg0.N, win0_10.index t (0 : Fin 2) = t.val ∧ win0_10.index t (1 : Fin 2) = 0 :=
  (by decide +kernel : ∀ t : Fin grid0.N, _)

theorem idx_rows11 : ∀ t : Fin cfg0.N, win0_11.index t (0 : Fin 2) = t.val ∧ win0_11.index t (1 : Fin 2) = 0 :=
  (by decide +kernel : ∀ t : Fin grid0.N, _)

theorem idx_whole1 : ∀ t : Fin cfg0.N, win0_1.index t (0 : Fin 2) = 0 ∧ win0_1.index t (1 : Fin 2) = 0 :=
  (by decide +kernel : ∀ t : Fin grid0.N, _)

theorem idx_whole2 : ∀ t : Fin cfg0.N, win0_2.index t (0 : Fin 2) = 0 ∧ win0_2.index t (1 : Fin 2) = 0 :=
  (by decide +kernel : ∀ t : Fin grid0.N, _)

theorem idx_whole3 : ∀ t : Fin cfg0.N, win0_3.index t (0 : Fin 2) = 0 ∧ win0_3.index t (1 : Fin 2) = 0 :=
  (by decide +kernel : ∀ t : Fin grid0.N, _)

/-! ## The operands the host writes before the region -/

/-- Entry `k` of the two bias vectors added. -/
abbrev biasSum (wb rb : FVec Ideal S4096 .f32) (k : Fin 4096) : EReal := wb (ix1 k) + rb (ix1 k)

/-- `W` as the region finds it is the argument: the change of float format is the identity. -/
theorem V_W (c : Dev nD) : (V m c main_v0 : S512x4096.Idx → EReal) = (m ((c : Thread nD τ).loc main_arg5) : S512x4096.Idx → EReal) := by
  dsimp only [V, hostOps0]; after_results; rfl

/-- `R` likewise. -/
theorem V_R (c : Dev nD) : (V m c main_v1 : S1024x4096.Idx → EReal) = (m ((c : Thread nD τ).loc main_arg7) : S1024x4096.Idx → EReal) := by
  dsimp only [V, hostOps0]; after_results; rfl

/-- The bias row as the region finds it, at column `k`, is the sum of the two bias arguments at `k`. -/
theorem V_bias (c : Dev nD) (k : Fin 4096) :
    (V m c main_v3 : S1x4096.Idx → EReal) (ix2 (0 : Fin 1) k) = biasSum (m ((c : Thread nD τ).loc main_arg6)) (m ((c : Thread nD τ).loc main_arg8)) k := by
  have e : (V m c main_v3 : S1x4096.Idx → EReal)
      = shapeCast S1x4096 (addf (F := Ideal) (s := S4096) (φ := .f32) (m ((c : Thread nD τ).loc main_arg6)) (m ((c : Thread nD τ).loc main_arg8))) shapeCasts_S4096_S1x4096 := by
    dsimp only [V, hostOps0]; after_results; rfl
  rw [e, shapeCast_a_1a_apply]; rfl

/-! ## The input windows' blocks as rows of their arrays -/

/-- Input window 0's block at point `t` is rows `256 t … 256 t + 255` of its array. -/
theorem blk0_at (c : Dev nD) (t : Fin cfg0.N) (p : Fin 256) (a : Fin 512) (r : Fin 16384) (hr : r.val = t.val * 256 + p.val) :
    (iblk m c 0 t : FVec Ideal S256x512 .f32) (ix2 p a) = (m ((c : Thread nD τ).loc main_arg0) : S16384x512.Idx → EReal) (ix2 r a) := by
  obtain ⟨e0, e1⟩ := idx_rows0 t
  unfold iblk
  rw [View.read_apply]
  show V m c main_arg0 _ = _
  rw [V_main_arg0]
  congr 1
  funext d
  apply Fin.ext
  match d with
  | ⟨0, _⟩ => show win0_0.index t 0 * 256 + 1 * p.val = r.val; rw [e0, hr]; omega
  | ⟨1, _⟩ => show win0_0.index t 1 * 512 + 1 * a.val = a.val; rw [e1]; omega

/-- Input window 4's block at point `t` is rows `256 t … 256 t + 255` of its array. -/
theorem blk4_at (c : Dev nD) (t : Fin cfg0.N) (p : Fin 256) (a : Fin 1024) (r : Fin 16384) (hr : r.val = t.val * 256 + p.val) :
    (iblk m c 4 t : FVec Ideal S256x1024 .f32) (ix2 p a) = (m ((c : Thread nD τ).loc main_arg2) : S16384x1024.Idx → EReal) (ix2 r a) := by
  obtain ⟨e0, e1⟩ := idx_rows4 t
  unfold iblk
  rw [View.read_apply]
  show V m c main_arg2 _ = _
  rw [V_main_arg2]
  congr 1
  funext d
  apply Fin.ext
  match d with
  | ⟨0, _⟩ => show win0_4.index t 0 * 256 + 1 * p.val = r.val; rw [e0, hr]; omega
  | ⟨1, _⟩ => show win0_4.index t 1 * 1024 + 1 * a.val = a.val; rw [e1]; omega

/-- Input window 5's block at point `t` is rows `256 t … 256 t + 255` of its array. -/
theorem blk5_at (c : Dev nD) (t : Fin cfg0.N) (p : Fin 256) (a : Fin 1024) (r : Fin 16384) (hr : r.val = t.val * 256 + p.val) :
    (iblk m c 5 t : FVec Ideal S256x1024 .f32) (ix2 p a) = (m ((c : Thread nD τ).loc main_arg1) : S16384x1024.Idx → EReal) (ix2 r a) := by
  obtain ⟨e0, e1⟩ := idx_rows5 t
  unfold iblk
  rw [View.read_apply]
  show V m c main_arg1 _ = _
  rw [V_main_arg1]
  congr 1
  funext d
  apply Fin.ext
  match d with
  | ⟨0, _⟩ => show win0_5.index t 0 * 256 + 1 * p.val = r.val; rw [e0, hr]; omega
  | ⟨1, _⟩ => show win0_5.index t 1 * 1024 + 1 * a.val = a.val; rw [e1]; omega

/-- Input window 6's block at point `t` is rows `256 t … 256 t + 255` of its array. -/
theorem blk6_at (c : Dev nD) (t : Fin cfg0.N) (p : Fin 256) (a : Fin 1024) (r : Fin 16384) (hr : r.val = t.val * 256 + p.val) :
    (iblk m c 6 t : FVec Ideal S256x1024 .f32) (ix2 p a) = (m ((c : Thread nD τ).loc main_arg3) : S16384x1024.Idx → EReal) (ix2 r a) := by
  obtain ⟨e0, e1⟩ := idx_rows6 t
  unfold iblk
  rw [View.read_apply]
  show V m c main_arg3 _ = _
  rw [V_main_arg3]
  congr 1
  funext d
  apply Fin.ext
  match d with
  | ⟨0, _⟩ => show win0_6.index t 0 * 256 + 1 * p.val = r.val; rw [e0, hr]; omega
  | ⟨1, _⟩ => show win0_6.index t 1 * 1024 + 1 * a.val = a.val; rw [e1]; omega

/-- Input window 7's block at point `t` is rows `256 t … 256 t + 255` of its array. -/
theorem blk7_at (c : Dev nD) (t : Fin cfg0.N) (p : Fin 256) (a : Fin 1024) (r : Fin 16384) (hr : r.val = t.val * 256 + p.val) :
    (iblk m c 7 t : FVec Ideal S256x1024 .f32) (ix2 p a) = (m ((c : Thread nD τ).loc main_arg4) : S16384x1024.Idx → EReal) (ix2 r a) := by
  obtain ⟨e0, e1⟩ := idx_rows7 t
  unfold iblk
  rw [View.read_apply]
  show V m c main_arg4 _ = _
  rw [V_main_arg4]
  congr 1
  funext d
  apply Fin.ext
  match d with
  | ⟨0, _⟩ => show win0_7.index t 0 * 256 + 1 * p.val = r.val; rw [e0, hr]; omega
  | ⟨1, _⟩ => show win0_7.index t 1 * 1024 + 1 * a.val = a.val; rw [e1]; omega

/-- The block of `W` at any point is the whole of `W`. -/
theorem blk1_at (c : Dev nD) (t : Fin cfg0.N) (a : Fin 512) (k : Fin 4096) :
    (iblk m c 1 t : FVec Ideal S512x4096 .bf16) (ix2 a k) = (m ((c : Thread nD τ).loc main_arg5) : S512x4096.Idx → EReal) (ix2 a k) := by
  obtain ⟨e0, e1⟩ := idx_whole1 t
  unfold iblk
  rw [View.read_apply]
  show (V m c main_v0 : S512x4096.Idx → EReal) _ = _
  rw [V_W]
  congr 1
  funext d
  apply Fin.ext
  match d with
  | ⟨0, _⟩ => show win0_1.index t 0 * 512 + 1 * a.val = a.val; rw [e0]; omega
  | ⟨1, _⟩ => show win0_1.index t 1 * 4096 + 1 * k.val = k.val; rw [e1]; omega

/-- The block of `R` at any point is the whole of `R`. -/
theorem blk2_at (c : Dev nD) (t : Fin cfg0.N) (a : Fin 1024) (k : Fin 4096) :
    (iblk m c 2 t : FVec Ideal S1024x4096 .bf16) (ix2 a k) = (m ((c : Thread nD τ).loc main_arg7) : S1024x4096.Idx → EReal) (ix2 a k) := by
  obtain ⟨e0, e1⟩ := idx_whole2 t
  unfold iblk
  rw [View.read_apply]
  show (V m c main_v1 : S1024x4096.Idx → EReal) _ = _
  rw [V_R]
  congr 1
  funext d
  apply Fin.ext
  match d with
  | ⟨0, _⟩ => show win0_2.index t 0 * 1024 + 1 * a.val = a.val; rw [e0]; omega
  | ⟨1, _⟩ => show win0_2.index t 1 * 4096 + 1 * k.val = k.val; rw [e1]; omega

/-- The block of the bias row at any point, at column `k`, is the sum of the two bias arguments at `k`. -/
theorem blk3_at (c : Dev nD) (t : Fin cfg0.N) (k : Fin 4096) :
    (iblk m c 3 t : FVec Ideal S1x4096 .f32) (ix2 (0 : Fin 1) k) = biasSum (m ((c : Thread nD τ).loc main_arg6)) (m ((c : Thread nD τ).loc main_arg8)) k := by
  obtain ⟨e0, e1⟩ := idx_whole3 t
  unfold iblk
  rw [View.read_apply]
  show (V m c main_v3 : S1x4096.Idx → EReal) _ = _
  rw [← V_bias m c k]
  congr 1
  funext d
  apply Fin.ext
  match d with
  | ⟨0, _⟩ => show win0_3.index t 0 * 1 + 1 * 0 = 0; rw [e0]
  | ⟨1, _⟩ => show win0_3.index t 1 * 4096 + 1 * k.val = k.val; rw [e1]; omega

/-- So at point `t`, row `p` of the blocks is row `256 t + p` of the argument arrays. -/
theorem isRow_at (c : Dev nD) (t : Fin cfg0.N) (p : Fin 256) (r : Fin 16384) (hr : r.val = t.val * 256 + p.val) :
    IsRow (iblk m c 0 t) (iblk m c 4 t) (iblk m c 1 t) (iblk m c 2 t) (iblk m c 3 t) (iblk m c 7 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p r where
  hx a := blk0_at m c t p a r hr
  hh a := blk4_at m c t p a r hr
  hmp q := blk7_at m c t p q r hr
  hcp q := blk5_at m c t p q r hr
  hnp q := blk6_at m c t p q r hr
  hW a k := blk1_at m c t a k
  hR a k := blk2_at m c t a k
  hb k := blk3_at m c t k

/-! ## Output window 8: the new hidden state -/

/-- What point `t` writes back to this array is block `t` of the cell's result. -/
theorem flushed8_eq (c : Dev nD) (t : Fin cfg0.N) :
    (dats m 0 c).flushed 8 t = ((cfg0.win 8).blk t).view.read (Elt Ideal) (hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1⟩ := idx_rows8 t
  rw [Value.flushed8]
  unfold out0_8
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz]
  funext y
  show k0_pay8 (F := Ideal) (iblk m c 0 t) (iblk m c 4 t) (iblk m c 1 t) (iblk m c 2 t) (iblk m c 3 t) (iblk m c 7 t) (iblk m c 5 t) (iblk m c 6 t) y = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 8).blk t).view.emb y)
  refine h_point (iblk m c 0 t) (iblk m c 4 t) (iblk m c 1 t) (iblk m c 2 t) (iblk m c 3 t) (iblk m c 7 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val (isRow_at m c t) y _ ?_ ?_
  · show win0_8.index t 0 * 256 + 1 * (y 0).val = t.val * 256 + (y 0).val
    rw [e0]; omega
  · show win0_8.index t 1 * 1024 + 1 * (y 1).val = (y 1).val
    rw [e1]; omega

/-- An index of the array is in point `t`'s block iff each coordinate is in the block's range on its axis. -/
theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v4_0).slice (win0_8.rect t)).set ↔ _
  rw [View.set_slice_whole, Rect.mem_set_unit]
  exact Iff.rfl

/-- Row `r` of the array lies in the block of point `r / 256`: the blocks fill the array. -/
theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : cfg0.N = 64 := N_0
  obtain ⟨e0, e1⟩ := idx_rows8 ⟨(i 0).val / 256, by rw [hN]; omega⟩
  refine ⟨⟨(i 0).val / 256, by rw [hN]; omega⟩, flush0_8 _, ?_⟩
  rw [mem_blk8]
  intro a
  match a with
  | ⟨0, _⟩ =>
    show win0_8.index ⟨(i 0).val / 256, _⟩ 0 * 256 ≤ (i 0).val ∧ (i 0).val < win0_8.index ⟨(i 0).val / 256, _⟩ 0 * 256 + 256
    rw [e0]; show (i 0).val / 256 * 256 ≤ (i 0).val ∧ (i 0).val < (i 0).val / 256 * 256 + 256; omega
  | ⟨1, _⟩ =>
    show win0_8.index ⟨(i 0).val / 256, _⟩ 1 * 1024 ≤ (i 1).val ∧ (i 1).val < win0_8.index ⟨(i 0).val / 256, _⟩ 1 * 1024 + 1024
    rw [e1]; omega

/-- The array after the run. -/
theorem final8 (c : Dev nD) : (dats m 0 c).arrAt 8 cfg0.N = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 8 (hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed8_eq m c t) (cover8)

/-! ## Output window 9: the new cell state -/

/-- What point `t` writes back to this array is block `t` of the cell's result. -/
theorem flushed9_eq (c : Dev nD) (t : Fin cfg0.N) :
    (dats m 0 c).flushed 9 t = ((cfg0.win 9).blk t).view.read (Elt Ideal) (cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1⟩ := idx_rows9 t
  rw [Value.flushed9]
  unfold out0_9
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz]
  funext y
  show k0_pay6 (F := Ideal) (iblk m c 0 t) (iblk m c 4 t) (iblk m c 1 t) (iblk m c 2 t) (iblk m c 3 t) (iblk m c 7 t) (iblk m c 5 t) y = cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb y)
  refine c_point (iblk m c 0 t) (iblk m c 4 t) (iblk m c 1 t) (iblk m c 2 t) (iblk m c 3 t) (iblk m c 7 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val (isRow_at m c t) y _ ?_ ?_
  · show win0_9.index t 0 * 256 + 1 * (y 0).val = t.val * 256 + (y 0).val
    rw [e0]; omega
  · show win0_9.index t 1 * 1024 + 1 * (y 1).val = (y 1).val
    rw [e1]; omega

/-- An index of the array is in point `t`'s block iff each coordinate is in the block's range on its axis. -/
theorem mem_blk9 (t : Fin cfg0.N) (i : S16384x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v4_1).slice (win0_9.rect t)).set ↔ _
  rw [View.set_slice_whole, Rect.mem_set_unit]
  exact Iff.rfl

/-- Row `r` of the array lies in the block of point `r / 256`: the blocks fill the array. -/
theorem cover9 (i : S16384x1024.Idx) : ∃ t : Fin cfg0.N, (cfg0.win 9).flush t = true ∧ i ∈ ((cfg0.win 9).blk t).view.set := by
  have hi0 : (i 0).val < 16384 := (i 0).isLt
  have hi1 : (i 1).val < 1024 := (i 1).isLt
  have hN : cfg0.N = 64 := N_0
  obtain ⟨e0, e1⟩ := idx_rows9 ⟨(i 0).val / 256, by rw [hN]; omega⟩
  refine ⟨⟨(i 0).val / 256, by rw [hN]; omega⟩, flush0_9 _, ?_⟩
  rw [mem_blk9]
  intro a
  match a with
  | ⟨0, _⟩ =>
    show win0_9.index ⟨(i 0).val / 256, _⟩ 0 * 256 ≤ (i 0).val ∧ (i 0).val < win0_9.index ⟨(i 0).val / 256, _⟩ 0 * 256 + 256
    rw [e0]; show (i 0).val / 256 * 256 ≤ (i 0).val ∧ (i 0).val < (i 0).val / 256 * 256 + 256; omega
  | ⟨1, _⟩ =>
    show win0_9.index ⟨(i 0).val / 256, _⟩ 1 * 1024 ≤ (i 1).val ∧ (i 1).val < win0_9.index ⟨(i 0).val / 256, _⟩ 1 * 1024 + 1024
    rw [e1]; omega

/-- The array after the run. -/
theorem final9 (c : Dev nD) : (dats m 0 c).arrAt 9 cfg0.N = cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed9_eq m c t) (cover9)

/-! ## Output window 10: the new normaliser -/

/-- What point `t` writes back to this array is block `t` of the cell's result. -/
theorem flushed10_eq (c : Dev nD) (t : Fin cfg0.N) :
    (dats m 0 c).flushed 10 t = ((cfg0.win 10).blk t).view.read (Elt Ideal) (nOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1⟩ := idx_rows10 t
  rw [Value.flushed10]
  unfold out0_10
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz]
  funext y
  show k0_pay7 (F := Ideal) (iblk m c 0 t) (iblk m c 4 t) (iblk m c 1 t) (iblk m c 2 t) (iblk m c 3 t) (iblk m c 7 t) (iblk m c 6 t) y = nOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 10).blk t).view.emb y)
  refine n_point (iblk m c 0 t) (iblk m c 4 t) (iblk m c 1 t) (iblk m c 2 t) (iblk m c 3 t) (iblk m c 7 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val (isRow_at m c t) y _ ?_ ?_
  · show win0_10.index t 0 * 256 + 1 * (y 0).val = t.val * 256 + (y 0).val
    rw [e0]; omega
  · show win0_10.index t 1 * 1024 + 1 * (y 1).val = (y 1).val
    rw [e1]; omega

/-- An index of the array is in point `t`'s block iff each coordinate is in the block's range on its axis. -/
theorem mem_blk10 (t : Fin cfg0.N) (i : S16384x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v4_2).slice (win0_10.rect t)).set ↔ _
  rw [View.set_slice_whole, Rect.mem_set_unit]
  exact Iff.rfl

/-- Row `r` of the array lies in the block of point `r / 256`: the blocks fill the array. -/
theorem cover10 (i : S16384x1024.Idx) : ∃ t : Fin cfg0.N, (cfg0.win 10).flush t = true ∧ i ∈ ((cfg0.win 10).blk t).view.set := by
  have hi0 : (i 0).val < 16384 := (i 0).isLt
  have hi1 : (i 1).val < 1024 := (i 1).isLt
  have hN : cfg0.N = 64 := N_0
  obtain ⟨e0, e1⟩ := idx_rows10 ⟨(i 0).val / 256, by rw [hN]; omega⟩
  refine ⟨⟨(i 0).val / 256, by rw [hN]; omega⟩, flush0_10 _, ?_⟩
  rw [mem_blk10]
  intro a
  match a with
  | ⟨0, _⟩ =>
    show win0_10.index ⟨(i 0).val / 256, _⟩ 0 * 256 ≤ (i 0).val ∧ (i 0).val < win0_10.index ⟨(i 0).val / 256, _⟩ 0 * 256 + 256
    rw [e0]; show (i 0).val / 256 * 256 ≤ (i 0).val ∧ (i 0).val < (i 0).val / 256 * 256 + 256; omega
  | ⟨1, _⟩ =>
    show win0_10.index ⟨(i 0).val / 256, _⟩ 1 * 1024 ≤ (i 1).val ∧ (i 1).val < win0_10.index ⟨(i 0).val / 256, _⟩ 1 * 1024 + 1024
    rw [e1]; omega

/-- The array after the run. -/
theorem final10 (c : Dev nD) : (dats m 0 c).arrAt 10 cfg0.N = nOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 10 (nOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed10_eq m c t) (cover10)

/-! ## Output window 11: the new stabiliser -/

/-- What point `t` writes back to this array is block `t` of the cell's result. -/
theorem flushed11_eq (c : Dev nD) (t : Fin cfg0.N) :
    (dats m 0 c).flushed 11 t = ((cfg0.win 11).blk t).view.read (Elt Ideal) (mOut (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) := by
  obtain ⟨e0, e1⟩ := idx_rows11 t
  rw [Value.flushed11]
  unfold out0_11
  rw [View.canon_unit_zero hz]
  simp only [View.ld_unit_zero (S := S256x512) hz, View.ld_unit_zero (S := S256x1024) hz, View.ld_unit_zero (S := S512x4096) hz,
    View.ld_unit_zero (S := S1024x4096) hz, View.ld_unit_zero (S := S1x4096) hz]
  funext y
  show k0_pay4 (F := Ideal) (iblk m c 0 t) (iblk m c 4 t) (iblk m c 1 t) (iblk m c 2 t) (iblk m c 3 t) (iblk m c 7 t) y = mOut (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 11).blk t).view.emb y)
  refine m_point (iblk m c 0 t) (iblk m c 4 t) (iblk m c 1 t) (iblk m c 2 t) (iblk m c 3 t) (iblk m c 7 t) (iblk m c 5 t) (iblk m c 6 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) t.val (isRow_at m c t) y _ ?_ ?_
  · show win0_11.index t 0 * 256 + 1 * (y 0).val = t.val * 256 + (y 0).val
    rw [e0]; omega
  · show win0_11.index t 1 * 1024 + 1 * (y 1).val = (y 1).val
    rw [e1]; omega

/-- An index of the array is in point `t`'s block iff each coordinate is in the block's range on its axis. -/
theorem mem_blk11 (t : Fin cfg0.N) (i : S16384x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v4_3).slice (win0_11.rect t)).set ↔ _
  rw [View.set_slice_whole, Rect.mem_set_unit]
  exact Iff.rfl

/-- Row `r` of the array lies in the block of point `r / 256`: the blocks fill the array. -/
theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  have hN : cfg0.N = 64 := N_0
  obtain ⟨e0, e1⟩ := idx_rows11 ⟨(i 0).val / 256, by rw [hN]; omega⟩
  refine ⟨⟨(i 0).val / 256, by rw [hN]; omega⟩, flush0_11 _, ?_⟩
  rw [mem_blk11]
  intro a
  match a with
  | ⟨0, _⟩ =>
    show win0_11.index ⟨(i 0).val / 256, _⟩ 0 * 256 ≤ (i 0).val ∧ (i 0).val < win0_11.index ⟨(i 0).val / 256, _⟩ 0 * 256 + 256
    rw [e0]; show (i 0).val / 256 * 256 ≤ (i 0).val ∧ (i 0).val < (i 0).val / 256 * 256 + 256; omega
  | ⟨1, _⟩ =>
    show win0_11.index ⟨(i 0).val / 256, _⟩ 1 * 1024 ≤ (i 1).val ∧ (i 1).val < win0_11.index ⟨(i 0).val / 256, _⟩ 1 * 1024 + 1024
    rw [e1]; omega

/-- The array after the run. -/
theorem final11 (c : Dev nD) : (dats m 0 c).arrAt 11 cfg0.N = mOut (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 11 (mOut (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed11_eq m c t) (cover11)

/-! ## The run, read -/

/-- Every weakly fair execution of the kernel's program ends with the four result arrays at the cell's four results
    of the argument arrays, the arguments unchanged. -/
theorem run : θ_run defs (onTc (τ := τ) (main (F := Ideal))) ⟨m, fun _ => 0, ρ⟩ fun r => ∀ c : Dev nD,
      r.2.mem ((c : Thread nD τ).loc main_v4_0) = hOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v4_1) = cOut (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v4_2) = nOut (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v4_3) = mOut (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final8 m c), (h c).2.1.trans (final9 m c),
      (h c).2.2.1.trans (final10 m c), (h c).2.2.2.1.trans (final11 m c), (h c).2.2.2.2⟩)
    (Value.run_blocks m ρ)

end Cert.KernelIdeal.Blocks

end
-- ==== Proof.RefCell.lean ====
/-
  The reference's four results, entry by entry, are the cell of Cell.lean.

  The reference forms the gate array as ((x W + w_b) + h R) + r_b, each bias repeated down the rows; entry (r, k) is
  the gate pre-activation of Cell.lean with its four summands in another grouping. It cuts the array into four
  column bands of 1024 (the cell input, input gate, forget gate, output gate of each hidden unit), and it takes the
  input gate and the forget gate through exp and then log before it uses them in the stabiliser: on the extended
  reals that round trip gives back the gate itself. Its sigmoid is spelt 1 / (1 + exp (-g)), which is the logistic
  function. Everything else is the same elementwise arithmetic as the cell's.
-/
import proofs.«120857_j11132555231846_2_alg».proof.Proof.Gen.ReferenceIdeal.Read
import proofs.«120857_j11132555231846_2_alg».proof.Proof.Cell

noncomputable section

namespace Cert.ReferenceIdeal.RefValue

open Cert.ReferenceIdeal Cert.ReferenceIdeal.Read Idealize.ShloMosaic Idealize.ShloMosaic.ValueIdx Cert.SLstm

variable (x0 : FVec Ideal S16384x512 .f32) (x1 x2 x3 x4 : FVec Ideal S16384x1024 .f32) (x5 : FVec Ideal S512x4096 .f32)
  (x6 : FVec Ideal S4096 .f32) (x7 : FVec Ideal S1024x4096 .f32) (x8 : FVec Ideal S4096 .f32)

/-! ## The gate array -/

/-- Entry `(r, k)` of the reference's gate array `((x W + w_b) + h R) + r_b` is the gate pre-activation: the two
    products are the two sums, each repeated bias is its entry `k`, and the four summands regroup. -/
theorem gates_at (r : Fin 16384) (k : Fin 4096) :
    val_main_v8 (F := Ideal) x0 x2 x5 x6 x7 x8 (ix2 r k) = gate x0 x2 x5 x6 x7 x8 r k := by
  have eL0 : ∀ a : Fin 512, lidx_main_v0 (ix2 r k) a = ix2 r a := fun a => funext fun d => Fin.ext (by
    match d with
    | ⟨0, _⟩ => rfl
    | ⟨1, _⟩ => rfl)
  have eR0 : ∀ a : Fin 512, ridx_main_v0 (ix2 r k) a = ix2 a k := fun a => funext fun d => Fin.ext (by
    match d with
    | ⟨0, _⟩ => rfl
    | ⟨1, _⟩ => rfl)
  have eL4 : ∀ a : Fin 1024, lidx_main_v4 (ix2 r k) a = ix2 r a := fun a => funext fun d => Fin.ext (by
    match d with
    | ⟨0, _⟩ => rfl
    | ⟨1, _⟩ => rfl)
  have eR4 : ∀ a : Fin 1024, ridx_main_v4 (ix2 r k) a = ix2 a k := fun a => funext fun d => Fin.ext (by
    match d with
    | ⟨0, _⟩ => rfl
    | ⟨1, _⟩ => rfl)
  have eb6 : idx_main_v1 (idx_main_v2 (ix2 r k)) = ix1 k := funext fun d => Fin.ext (by
    match d with
    | ⟨0, _⟩ => rfl)
  have eb8 : idx_main_v6 (idx_main_v7 (ix2 r k)) = ix1 k := funext fun d => Fin.ext (by
    match d with
    | ⟨0, _⟩ => rfl)
  rw [val_main_v8_apply, val_main_v5_apply, val_main_v3_apply, val_main_v0_apply, val_main_v2_apply, val_main_v1_apply,
    val_main_v4_apply, val_main_v7_apply, val_main_v6_apply]
  simp only [eL0, eR0, eL4, eR4, eb6, eb8, Ideal.addf_def]
  unfold gate
  exact regroup _ _ _ _

/-! ## The four column bands -/

theorem g0_at (r : Fin 16384) (j : Fin 1024) :
    val_main_v9 (F := Ideal) x0 x2 x5 x6 x7 x8 (ix2 r j) = gate x0 x2 x5 x6 x7 x8 r (gcol 0 (by omega) j) := by
  rw [val_main_v9_apply, show idx_main_v9 (ix2 r j) = ix2 r (gcol 0 (by omega) j) from
    funext fun d => Fin.ext (by
      match d with
      | ⟨0, _⟩ => rfl
      | ⟨1, _⟩ => rfl), gates_at]

theorem g1024_at (r : Fin 16384) (j : Fin 1024) :
    val_main_v10 (F := Ideal) x0 x2 x5 x6 x7 x8 (ix2 r j) = gate x0 x2 x5 x6 x7 x8 r (gcol 1024 (by omega) j) := by
  rw [val_main_v10_apply, show idx_main_v10 (ix2 r j) = ix2 r (gcol 1024 (by omega) j) from
    funext fun d => Fin.ext (by
      match d with
      | ⟨0, _⟩ => rfl
      | ⟨1, _⟩ => show 1024 + j.val = j.val + 1024; omega), gates_at]

theorem g2048_at (r : Fin 16384) (j : Fin 1024) :
    val_main_v11 (F := Ideal) x0 x2 x5 x6 x7 x8 (ix2 r j) = gate x0 x2 x5 x6 x7 x8 r (gcol 2048 (by omega) j) := by
  rw [val_main_v11_apply, show idx_main_v11 (ix2 r j) = ix2 r (gcol 2048 (by omega) j) from
    funext fun d => Fin.ext (by
      match d with
      | ⟨0, _⟩ => rfl
      | ⟨1, _⟩ => show 2048 + j.val = j.val + 2048; omega), gates_at]

theorem g3072_at (r : Fin 16384) (j : Fin 1024) :
    val_main_v12 (F := Ideal) x0 x2 x5 x6 x7 x8 (ix2 r j) = gate x0 x2 x5 x6 x7 x8 r (gcol 3072 (by omega) j) := by
  rw [val_main_v12_apply, show idx_main_v12 (ix2 r j) = ix2 r (gcol 3072 (by omega) j) from
    funext fun d => Fin.ext (by
      match d with
      | ⟨0, _⟩ => rfl
      | ⟨1, _⟩ => show 3072 + j.val = j.val + 3072; omega), gates_at]

/-! ## The cell -/

/-- The reference's new stabiliser: `max (log (exp g2) + m') (log (exp g1))`, the logarithms undoing the exponentials. -/
theorem m_at (r : Fin 16384) (j : Fin 1024) :
    val_main_v25 (F := Ideal) x0 x2 x4 x5 x6 x7 x8 (ix2 r j) = mAt x0 x2 x4 x5 x6 x7 x8 r j := by
  rw [val_main_v25_apply, val_main_v24_apply, val_main_v23_apply, val_main_v22_apply, val_main_v15_apply,
    val_main_v14_apply, g1024_at, g2048_at]
  simp only [Ideal.maximumf_def, Ideal.addf_def, Ideal.hostUnary_log_def, Ideal.hostUnary_exp_def, log_exp]
  rfl

/-- The reference's stabilised forget factor. -/
theorem f_at (r : Fin 16384) (j : Fin 1024) :
    val_main_v30 (F := Ideal) x0 x2 x4 x5 x6 x7 x8 (ix2 r j)
      = fStab (gate x0 x2 x5 x6 x7 x8 r (gcol 1024 (by omega) j)) (gate x0 x2 x5 x6 x7 x8 r (gcol 2048 (by omega) j)) (x4 (ix2 r j)) := by
  rw [val_main_v30_apply, val_main_v29_apply, val_main_v28_apply, val_main_v23_apply, val_main_v15_apply, m_at, g2048_at]
  simp only [Ideal.addf_def, Ideal.subf_def, Ideal.hostUnary_log_def, Ideal.hostUnary_exp_def, log_exp]
  rfl

/-- The reference's new cell state. -/
theorem c_at (r : Fin 16384) (j : Fin 1024) :
    val_main_v33 (F := Ideal) x0 x1 x2 x4 x5 x6 x7 x8 (ix2 r j) = cAt x0 x1 x2 x4 x5 x6 x7 x8 r j := by
  rw [val_main_v33_apply, val_main_v31_apply, val_main_v32_apply, val_main_v13_apply, val_main_v14_apply, f_at,
    g0_at, g1024_at]
  simp only [Ideal.addf_def, Ideal.mulf_def, Ideal.hostUnary_tanh_def, Ideal.hostUnary_exp_def]
  rfl

/-- The reference's new normaliser. -/
theorem n_at (r : Fin 16384) (j : Fin 1024) :
    val_main_v35 (F := Ideal) x0 x2 x3 x4 x5 x6 x7 x8 (ix2 r j) = nAt x0 x2 x3 x4 x5 x6 x7 x8 r j := by
  rw [val_main_v35_apply, val_main_v34_apply, val_main_v27_apply, val_main_v26_apply, val_main_v22_apply,
    val_main_v14_apply, f_at, m_at, g1024_at]
  simp only [Ideal.addf_def, Ideal.subf_def, Ideal.mulf_def, Ideal.hostUnary_log_def, Ideal.hostUnary_exp_def, log_exp]
  rfl

/-- The reference's new hidden state: its sigmoid `1 / (1 + exp (-g3))` is the logistic function. -/
theorem h_at (r : Fin 16384) (j : Fin 1024) :
    val_main_v37 (F := Ideal) x0 x1 x2 x3 x4 x5 x6 x7 x8 (ix2 r j) = hAt x0 x1 x2 x3 x4 x5 x6 x7 x8 r j := by
  rw [val_main_v37_apply, val_main_v36_apply, val_main_v21_apply, val_main_v20_apply, val_main_cst_0_apply,
    val_main_v19_apply, val_main_v18_apply, val_main_cst_apply, val_main_v17_apply, val_main_v16_apply, c_at, n_at,
    g3072_at]
  simp only [Ideal.addf_def, Ideal.mulf_def, Ideal.hostDivf_def, Ideal.hostUnary_exp_def, Ideal.hostNegf_def,
    Ideal.negf_def, Ideal.ofBits_def, logistic_written_out]
  rfl

/-! ## The four result arrays -/

theorem m_eq : val_main_v25 (F := Ideal) x0 x2 x4 x5 x6 x7 x8 = mOut x0 x2 x4 x5 x6 x7 x8 := by
  funext i
  obtain ⟨r, j, rfl⟩ : ∃ (r : Fin 16384) (j : Fin 1024), i = ix2 r j := ⟨i 0, i 1, eq_ix2 i⟩
  exact m_at x0 x2 x4 x5 x6 x7 x8 r j

theorem c_eq : val_main_v33 (F := Ideal) x0 x1 x2 x4 x5 x6 x7 x8 = cOut x0 x1 x2 x4 x5 x6 x7 x8 := by
  funext i
  obtain ⟨r, j, rfl⟩ : ∃ (r : Fin 16384) (j : Fin 1024), i = ix2 r j := ⟨i 0, i 1, eq_ix2 i⟩
  exact c_at x0 x1 x2 x4 x5 x6 x7 x8 r j

theorem n_eq : val_main_v35 (F := Ideal) x0 x2 x3 x4 x5 x6 x7 x8 = nOut x0 x2 x3 x4 x5 x6 x7 x8 := by
  funext i
  obtain ⟨r, j, rfl⟩ : ∃ (r : Fin 16384) (j : Fin 1024), i = ix2 r j := ⟨i 0, i 1, eq_ix2 i⟩
  exact n_at x0 x2 x3 x4 x5 x6 x7 x8 r j

theorem h_eq : val_main_v37 (F := Ideal) x0 x1 x2 x3 x4 x5 x6 x7 x8 = hOut x0 x1 x2 x3 x4 x5 x6 x7 x8 := by
  funext i
  obtain ⟨r, j, rfl⟩ : ∃ (r : Fin 16384) (j : Fin 1024), i = ix2 r j := ⟨i 0, i 1, eq_ix2 i⟩
  exact h_at x0 x1 x2 x3 x4 x5 x6 x7 x8 r j

end Cert.ReferenceIdeal.RefValue

end
-- ==== Proof.lean ====
/-
  The certificate of the exponential-gated, max-stabilised LSTM cell kernel against its array-level reference.

  Both programs compute, for every batch row and hidden unit, the cell of Proof/Cell.lean: four gate pre-activations
  (the row's input against W, its previous hidden state against R, the two biases), a new stabiliser
  m = max (g2 + m') g1, a new cell state c = exp ((g2 + m') - m) c' + exp g1 tanh g0, a new normaliser
  n = exp ((g2 + m') - m) n' + exp (g1 - m), and a new hidden state h = logistic g3 (c / n); the results are
  (h, c, h, n, m).

  The kernel works on blocks of 256 batch rows, multiplies in a narrower float format into a wider accumulator,
  adds the two biases to each other before adding them to the products, and uses the input and forget gates
  directly in the stabiliser. The reference works on whole arrays, adds each bias where the source formula has it,
  spells the sigmoid as 1 / (1 + exp (-g)), and takes the two gates through exp and log first. On the extended reals
  a change of float format is the identity and a product into a zero accumulator is the plain sum, so the blocks'
  gates are the arrays' gates (Proof/KernelGates.lean, Proof/KernelCell.lean, Proof/KernelBlocks.lean); the sum of
  four extended reals does not depend on its grouping, the logarithm undoes the exponential at every extended real,
  and 1 / (1 + exp (-g)) is the logistic function (Proof/Cell.lean, Proof/RefCell.lean). None of these laws needs
  a finite value, so the equivalence holds for all extended-real inputs and the precondition is never opened.
  The kernel's idealization rewrote no operation, so there is nothing to preserve beyond the program's own text.
-/
import proofs.«120857_j11132555231846_2_alg».proof.Defs
import proofs.«120857_j11132555231846_2_alg».proof.Proof.Gen.Kernel
import proofs.«120857_j11132555231846_2_alg».proof.Proof.Gen.Kernel.Skeleton
import proofs.«120857_j11132555231846_2_alg».proof.Proof.Gen.Kernel.Launch
import proofs.«120857_j11132555231846_2_alg».proof.Proof.Gen.Kernel.Points
import proofs.«120857_j11132555231846_2_alg».proof.Proof.Gen.Kernel.Frame
import proofs.«120857_j11132555231846_2_alg».proof.Proof.Gen.KernelIdeal
import proofs.«120857_j11132555231846_2_alg».proof.Proof.Gen.KernelIdeal.Skeleton
import proofs.«120857_j11132555231846_2_alg».proof.Proof.Gen.KernelIdeal.Launch
import proofs.«120857_j11132555231846_2_alg».proof.Proof.Gen.KernelIdeal.Points
import proofs.«120857_j11132555231846_2_alg».proof.Proof.Gen.KernelIdeal.Frame
import proofs.«120857_j11132555231846_2_alg».proof.Proof.Gen.KernelIdeal.Value
import proofs.«120857_j11132555231846_2_alg».proof.Proof.Gen.ReferenceIdeal
import proofs.«120857_j11132555231846_2_alg».proof.Proof.Gen.ReferenceIdeal.Run
import proofs.«120857_j11132555231846_2_alg».proof.Proof.Gen.ReferenceIdeal.Read
import proofs.«120857_j11132555231846_2_alg».proof.Proof.Gen.Pre_finite_inputs
import proofs.«120857_j11132555231846_2_alg».proof.Proof.KernelBlocks
import proofs.«120857_j11132555231846_2_alg».proof.Proof.RefCell
import Idealize.ShloMosaic.Adequacy
import Idealize.ShloMosaic.Init

noncomputable section

namespace Cert.Proof

open Idealize.ShloMosaic Idealize.SL.Sem Cert.SLstm

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the five results dropped. -/
theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

/-- The idealization rewrote no operation. -/
theorem preserves : Cert.preserves_Kernel_KernelIdeal := trivial

/-- From memories that agree on the nine arguments both programs end with the five results `(h, c, h, n, m)` of the cell
    of the arguments: the kernel's arrays by its run read block by block, the reference's by its run read entry by entry. -/
theorem algebraic : Cert.algebraic_KernelIdeal_ReferenceIdeal := by
  intro m ρ m' ρ' _ hagree
  refine ⟨fun c => hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => cOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => nOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => mOut (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    (θ_run Cert.KernelIdeal.defs _ _).mono (fun r h c => ⟨(h c).1, (h c).2.1, (h c).1, (h c).2.2.1, (h c).2.2.2.1, (h c).2.2.2.2⟩)
      (Cert.KernelIdeal.Blocks.run m ρ), ?_⟩
  refine (θ_run Cert.ReferenceIdeal.defs _ _).mono (fun r h c => ?_) (Cert.ReferenceIdeal.Value.run (F := Ideal) m' ρ')
  obtain ⟨a0, a1, a2, a3, a4, a5, a6, a7, a8⟩ := hagree c
  have eh : Cert.ReferenceIdeal.Value.res_main_v37 m' c = hOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    rw [Cert.ReferenceIdeal.Read.val_main_v37_eq, Cert.ReferenceIdeal.RefValue.h_eq, a0, a1, a2, a3, a4, a5, a6, a7, a8]
  refine ⟨(h c).1.trans eh, (h c).2.1.trans ?_, (h c).2.2.1.trans eh, (h c).2.2.2.1.trans ?_, (h c).2.2.2.2.1.trans ?_, (h c).2.2.2.2.2⟩
  · refine (Cert.ReferenceIdeal.Read.val_main_v33_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [Cert.ReferenceIdeal.RefValue.c_eq, a0, a1, a2, a4, a5, a6, a7, a8]
  · rw [Cert.ReferenceIdeal.Read.val_main_v35_eq, Cert.ReferenceIdeal.RefValue.n_eq, a0, a2, a3, a4, a5, a6, a7, a8]
  · refine (Cert.ReferenceIdeal.Read.val_main_v25_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))).trans ?_
    rw [Cert.ReferenceIdeal.RefValue.m_eq, a0, a2, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
